-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S4096x2048 .f32) (main_arg5 : FVec F S2048 .f32) (main_arg6 : FVec F S4096x2048 .f32) (main_arg7 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  fn_part2 (F := F) main_arg7 main_v33

def fn {F : FTy → Type} [FloatOps F] (main_arg0 : FVec F S8192x2048 .f32) (main_arg1 : FVec F S8192x2048 .f32) (main_arg2 : FVec F S4096x2048 .f32) (main_arg3 : FVec F S2048 .f32) (main_arg4 : FVec F S4096x2048 .f32) (main_arg5 : FVec F S2048 .f32) (main_arg6 : FVec F S4096x2048 .f32) (main_arg7 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S8192x2048 : Shape := ⟨2, ![8192, 2048]⟩
abbrev S4096x2048 : Shape := ⟨2, ![4096, 2048]⟩
abbrev S2048 : Shape := ⟨1, ![2048]⟩
abbrev S2048x2048 : Shape := ⟨2, ![2048, 2048]⟩
abbrev S1x2048 : Shape := ⟨2, ![1, 2048]⟩
abbrev S3x2048 : Shape := ⟨2, ![3, 2048]⟩
abbrev S128x2048 : Shape := ⟨2, ![128, 2048]⟩

abbrev nBuf : Space → Nat
  | .hbm => 26
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S2048, .f32⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x2048, .bf16⟩
  | .hbm, ⟨14, _⟩ => ⟨S2048x2048, .f32⟩
  | .hbm, ⟨15, _⟩ => ⟨S2048x2048, .bf16⟩
  | .hbm, ⟨16, _⟩ => ⟨S2048x2048, .f32⟩
  | .hbm, ⟨17, _⟩ => ⟨S2048x2048, .bf16⟩
  | .hbm, ⟨18, _⟩ => ⟨S2048x2048, .f32⟩
  | .hbm, ⟨19, _⟩ => ⟨S2048x2048, .bf16⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S3x2048, .f32⟩
  | .hbm, ⟨24, _⟩ => ⟨S8192x2048, .bf16⟩
  | .hbm, ⟨25, _⟩ => ⟨S8192x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .f32⟩
  | .local _ .vmem, ⟨3, _⟩ => ⟨S128x2048, .f32⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S2048x2048, .bf16⟩
  | .local _ .vmem, ⟨9, _⟩ => ⟨S2048x2048, .bf16⟩
  | .local _ .vmem, ⟨10, _⟩ => ⟨S3x2048, .f32⟩
  | .local _ .vmem, ⟨11, _⟩ => ⟨S128x2048, .f32⟩
  | .local _ .vmem, ⟨12, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S4096x2048_S2048x2048_0_0 : S4096x2048.Slices ![0, 0] S2048x2048
  bitsLt_bf16_f32 : FTy.bits .bf16 < FTy.bits .f32
  slices_S4096x2048_S2048x2048_2048_0 : S4096x2048.Slices ![2048, 0] S2048x2048
  bcast_S2048_S1x2048_1 : S2048.BroadcastsInDim S1x2048 (![1] : Fin 1 → Fin S1x2048.rank)
  concatenates_S1x2048_S1x2048_S1x2048_S3x2048_d0 : Shape.Concatenates [S1x2048, S1x2048, S1x2048] S3x2048 0
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S3x2048_S1x2048_0_0 : ∀ a, (![0, 0] : Fin 2 → Nat) a + S1x2048.size a ≤ S3x2048.size a
  h_S1x2048 : 0 < S1x2048.numel
  shapeCasts_S1x2048_S1x2048 : S1x2048.ShapeCasts S1x2048
  inb_S3x2048_S1x2048_1_0 : ∀ a, (![1, 0] : Fin 2 → Nat) a + S1x2048.size a ≤ S3x2048.size a
  inb_S3x2048_S1x2048_2_0 : ∀ a, (![2, 0] : Fin 2 → Nat) a + S1x2048.size a ≤ S3x2048.size a
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S1x2048_S128x2048 : S1x2048.Broadcasts S128x2048
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .bf16 = 32 ∨ (Rect.block (s := S8192x2048) S128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .bf16 = 32 ∨ (Rect.block (s := S2048x2048) S2048x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x2048.size a ≤ S3x2048.size a
  hwx0_8 : ∀ i : grid0.Coords, EltTy.bits .f32 = 32 ∨ (Rect.block (s := S3x2048) S3x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S8192x2048.size a
  hwx0_9 : ∀ i : grid0.Coords, EltTy.bits .f32 = 32 ∨ (Rect.block (s := S8192x2048) S128x2048.size (cc0_transform_9 i) (hinb0_9 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_v16) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S3x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S128x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S2048 : Shape := ⟨1, ![2048]⟩
abbrev S2048x2048 : Shape := ⟨2, ![2048, 2048]⟩
abbrev S1x2048 : Shape := ⟨2, ![1, 2048]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  slices_S4096x2048_S2048x2048_0_0 : S4096x2048.Slices ![0, 0] S2048x2048
  slices_S4096x2048_S2048x2048_2048_0 : S4096x2048.Slices ![2048, 0] S2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.KHost.lean ====
/-
  The program's @main up to its one region, and what the region finds.

  @main is seventeen host operations and then the region. The host operations cut each combined weight matrix
  [4096, 2048] into its two halves [2048, 2048] (rows 0..2047 meet x, rows 2048..4095 meet h) and change their float
  format, lay the three bias vectors as the rows of one [3, 2048] array, and change x's float format. None of them
  writes an argument array, so the region finds every argument as launched. Window w of the region reads, at grid point
  t, the block of its array that its index map names: rows 128·t .. 128·t+127 of x, of h and of the result; the whole
  of each weight half and of the stacked biases at every point.
-/
import proofs.«139109_j27719718928937_2_alg».proof.Proof.Gen.Kernel.Launch
import proofs.«139109_j27719718928937_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the launch memory after the seventeen host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0's array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 1's array: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 2's array: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 3's array: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 4's array: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 5's array: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 6's array: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 7's array: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether it was fetched there or
    not (an unfetched window's block index has not moved), for any proof data whose arrays are the region-entry
    contents and whose body leaves the inputs' blocks in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post gives the
    frame claim's post: h is window 1's array and an input, so it ends at its entry contents; the other seven arguments
    are staged by no window and end as the region found them; and the region found all eight as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

end Cert.Kernel.Frame

end
-- ==== Proof.KBody.lean ====
/-
  The kernel body as a triple: one grid point of the recurrent cell.

  On whole staging buffers holding a block x (128 rows of the input), a block h (the same 128 rows of the previous
  state), the six weight halves, and the three stacked bias rows, the body reads all of them whole (the biases one
  row at a time), reads its output buffer (the value is not used), and stores ONE value over the whole output buffer:
      z = logistic(x·Wzx + h·Wzh + bz),  r = logistic(x·Wrx + h·Wrh + br),
      n = tanh(x·Wnx + (r∘h)·Wnh + bn),  out = (1 − z)∘h + z∘n.
  The inputs' buffers are left as found. The stored value is the body's arithmetic as one pure term of the loads.
-/
import proofs.«139109_j27719718928937_2_alg».proof.Proof.Gen.Kernel.Launch
import proofs.«139109_j27719718928937_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole of a [128, 2048] buffer: a block of x, of h, of the result. -/
abbrev rAct : Rect S128x2048 := Rect.unit (s := S128x2048) ![0, 0] S128x2048.size inb_S128x2048_S128x2048_0_0
/-- The whole of a [2048, 2048] buffer: one weight half. -/
abbrev rW : Rect S2048x2048 := Rect.unit (s := S2048x2048) ![0, 0] S2048x2048.size inb_S2048x2048_S2048x2048_0_0
/-- Row 0, 1, 2 of the stacked biases: the update gate's, the reset gate's, the candidate's. -/
abbrev rB0 : Rect S3x2048 := Rect.unit (s := S3x2048) ![0, 0] S1x2048.size inb_S3x2048_S1x2048_0_0
abbrev rB1 : Rect S3x2048 := Rect.unit (s := S3x2048) ![1, 0] S1x2048.size inb_S3x2048_S1x2048_1_0
abbrev rB2 : Rect S3x2048 := Rect.unit (s := S3x2048) ![2, 0] S1x2048.size inb_S3x2048_S1x2048_2_0

/-! ## What the body leaves in the output window's buffer -/

/-- The output buffer after the body, from the input buffers' contents: its one store, over the whole buffer, of
    the new state computed from the loads (the update gate from x, h, the first weight pair and bias row 0; the
    reset gate times h from the second pair and row 1; the candidate from the third pair and row 2). -/
def out9 (x0 : Vec F S128x2048 .bf16) (x1 : Vec F S128x2048 .f32) (x2 x3 x4 x5 x6 x7 : Vec F S2048x2048 .bf16) (x8 : Vec F S3x2048 .f32) : Vec F S128x2048 .f32 :=
  View.canon [⟨rAct, k0_pay1 (k0_pay2 (View.ld x0 rAct)) (View.ld x1 rAct) (k0_pay4 (View.ld x8 rB2))
    (k0_pay5 (View.ld x0 rAct) (View.ld x1 rAct) (View.ld x8 rB0) (View.ld x2 rW) (View.ld x3 rW))
    (k0_pay6 (View.ld x0 rAct) (View.ld x1 rAct) (View.ld x8 rB1) (View.ld x4 rW) (View.ld x5 rW))
    (k0_pay7 (View.ld x6 rW)) (constant S128x2048 .f32 0x00000000#32) (View.ld x7 rW)⟩]

/-- The one store covers the buffer. -/
theorem cover9 (p0 : Vec F S128x2048 .f32) (y : S128x2048.Idx) :
    ∃ pc ∈ ([⟨rAct, p0⟩] : List (View.Piece (Elt F) S128x2048 .f32)), y ∈ pc.1.set :=
  View.cover_of_tiled [⟨rAct, p0⟩] S128x2048.size (by rfl) y

/-! ## The body's triple -/

set_option maxHeartbeats 1000000 in
/-- The body on whole staging buffers, the inputs' at contents `x0 … x8` and the output's at anything, runs to
    the continuation holding the inputs' as they were and the output's at `out9` of them. -/
theorem sound_kernel (c : Dev nD) (E : Set ℕ) (i : grid0.Coords) (arg1 : Memref sig .tc .vmem S128x2048 .bf16) (harg1 : arg1.IsWhole) (arg2 : Memref sig .tc .vmem S128x2048 .f32) (harg2 : arg2.IsWhole) (arg3 : Memref sig .tc .vmem S2048x2048 .bf16) (harg3 : arg3.IsWhole) (arg4 : Memref sig .tc .vmem S2048x2048 .bf16) (harg4 : arg4.IsWhole) (arg5 : Memref sig .tc .vmem S2048x2048 .bf16) (harg5 : arg5.IsWhole) (arg6 : Memref sig .tc .vmem S2048x2048 .bf16) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S3x2048 .f32) (harg9 : arg9.IsWhole) (arg10 : Memref sig .tc .vmem S128x2048 .f32) (harg10 : arg10.IsWhole)
    (x0 : Vec F S128x2048 .bf16) (x1 : Vec F S128x2048 .f32) (x2 x3 x4 x5 x6 x7 : Vec F S2048x2048 .bf16) (x8 : Vec F S3x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4 x5 x6 x7 x8)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover9 _)

end Cert.Kernel.Frame

end
-- ==== Proof.KRun.lean ====
/-
  The run of the whole program and its frame.

  The proof data of the one region: every window's array is what the region finds; after the body at grid point t
  each input's buffer still holds its block, and the output's buffer holds the new state computed from the nine
  input blocks at t. With the body's triple at a generic point this gives the library's run of @main, whose post names
  every array at the end; the eight argument arrays end as launched.
-/
import proofs.«139109_j27719718928937_2_alg».proof.Proof.KHost
import proofs.«139109_j27719718928937_2_alg».proof.Proof.KBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's proof data -/

/-- On core `c`: the arrays as the region finds them; after the body at point `t` each input's buffer at its
    block and the output's at the new state of the nine input blocks; the invariant is the untouched rest; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

/-! Each input's current staging buffer holds its block at every point. -/
theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d
theorem before6 (c : Dev nD) (t : Fin cfg0.N) (d) : (dats m 0 c).before 6 t d = iblk m c 6 t :=
  before_in6_of m (dats m 0 c) (A_eq m c 6) (after6 m c) t d
theorem before7 (c : Dev nD) (t : Fin cfg0.N) (d) : (dats m 0 c).before 7 t d = iblk m c 7 t :=
  before_in7_of m (dats m 0 c) (A_eq m c 7) (after7 m c) t d
theorem before8 (c : Dev nD) (t : Fin cfg0.N) (d) : (dats m 0 c).before 8 t d = iblk m c 8 t :=
  before_in8_of m (dats m 0 c) (A_eq m c 8) (after8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates without a fault, and every
    final state has every array of the region at what the proof data computes and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without a fault and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Frame

end
-- ==== Proof.KIHost.lean ====
/-
  The program's @main up to its one region, and what the region finds.

  @main is seventeen host operations and then the region. The host operations cut each combined weight matrix
  [4096, 2048] into its two halves [2048, 2048] (rows 0..2047 meet x, rows 2048..4095 meet h) and change their float
  format, lay the three bias vectors as the rows of one [3, 2048] array, and change x's float format. None of them
  writes an argument array, so the region finds every argument as launched. Window w of the region reads, at grid point
  t, the block of its array that its index map names: rows 128·t .. 128·t+127 of x, of h and of the result; the whole
  of each weight half and of the stacked biases at every point.
-/
import proofs.«139109_j27719718928937_2_alg».proof.Proof.Gen.KernelIdeal.Launch
import proofs.«139109_j27719718928937_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the launch memory after the seventeen host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0's array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 1's array: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 2's array: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 3's array: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 4's array: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 5's array: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 6's array: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 7's array: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether it was fetched there or
    not (an unfetched window's block index has not moved), for any proof data whose arrays are the region-entry
    contents and whose body leaves the inputs' blocks in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post gives the
    frame claim's post: h is window 1's array and an input, so it ends at its entry contents; the other seven arguments
    are staged by no window and end as the region found them; and the region found all eight as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

end Cert.KernelIdeal.Frame

end
-- ==== Proof.KIBody.lean ====
/-
  The kernel body as a triple: one grid point of the recurrent cell.

  On whole staging buffers holding a block x (128 rows of the input), a block h (the same 128 rows of the previous
  state), the six weight halves, and the three stacked bias rows, the body reads all of them whole (the biases one
  row at a time), reads its output buffer (the value is not used), and stores ONE value over the whole output buffer:
      z = logistic(x·Wzx + h·Wzh + bz),  r = logistic(x·Wrx + h·Wrh + br),
      n = tanh(x·Wnx + (r∘h)·Wnh + bn),  out = (1 − z)∘h + z∘n.
  The inputs' buffers are left as found. The stored value is the body's arithmetic as one pure term of the loads.
-/
import proofs.«139109_j27719718928937_2_alg».proof.Proof.Gen.KernelIdeal.Launch
import proofs.«139109_j27719718928937_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole of a [128, 2048] buffer: a block of x, of h, of the result. -/
abbrev rAct : Rect S128x2048 := Rect.unit (s := S128x2048) ![0, 0] S128x2048.size inb_S128x2048_S128x2048_0_0
/-- The whole of a [2048, 2048] buffer: one weight half. -/
abbrev rW : Rect S2048x2048 := Rect.unit (s := S2048x2048) ![0, 0] S2048x2048.size inb_S2048x2048_S2048x2048_0_0
/-- Row 0, 1, 2 of the stacked biases: the update gate's, the reset gate's, the candidate's. -/
abbrev rB0 : Rect S3x2048 := Rect.unit (s := S3x2048) ![0, 0] S1x2048.size inb_S3x2048_S1x2048_0_0
abbrev rB1 : Rect S3x2048 := Rect.unit (s := S3x2048) ![1, 0] S1x2048.size inb_S3x2048_S1x2048_1_0
abbrev rB2 : Rect S3x2048 := Rect.unit (s := S3x2048) ![2, 0] S1x2048.size inb_S3x2048_S1x2048_2_0

/-! ## What the body leaves in the output window's buffer -/

/-- The output buffer after the body, from the input buffers' contents: its one store, over the whole buffer, of
    the new state computed from the loads (the update gate from x, h, the first weight pair and bias row 0; the
    reset gate times h from the second pair and row 1; the candidate from the third pair and row 2). -/
def out9 (x0 : Vec F S128x2048 .bf16) (x1 : Vec F S128x2048 .f32) (x2 x3 x4 x5 x6 x7 : Vec F S2048x2048 .bf16) (x8 : Vec F S3x2048 .f32) : Vec F S128x2048 .f32 :=
  View.canon [⟨rAct, k0_pay1 (k0_pay2 (View.ld x0 rAct)) (View.ld x1 rAct) (k0_pay4 (View.ld x8 rB2))
    (k0_pay5 (View.ld x0 rAct) (View.ld x1 rAct) (View.ld x8 rB0) (View.ld x2 rW) (View.ld x3 rW))
    (k0_pay6 (View.ld x0 rAct) (View.ld x1 rAct) (View.ld x8 rB1) (View.ld x4 rW) (View.ld x5 rW))
    (k0_pay7 (View.ld x6 rW)) (constant S128x2048 .f32 0x00000000#32) (View.ld x7 rW)⟩]

/-- The one store covers the buffer. -/
theorem cover9 (p0 : Vec F S128x2048 .f32) (y : S128x2048.Idx) :
    ∃ pc ∈ ([⟨rAct, p0⟩] : List (View.Piece (Elt F) S128x2048 .f32)), y ∈ pc.1.set :=
  View.cover_of_tiled [⟨rAct, p0⟩] S128x2048.size (by rfl) y

/-! ## The body's triple -/

set_option maxHeartbeats 1000000 in
/-- The body on whole staging buffers, the inputs' at contents `x0 … x8` and the output's at anything, runs to
    the continuation holding the inputs' as they were and the output's at `out9` of them. -/
theorem sound_kernel (c : Dev nD) (E : Set ℕ) (i : grid0.Coords) (arg1 : Memref sig .tc .vmem S128x2048 .bf16) (harg1 : arg1.IsWhole) (arg2 : Memref sig .tc .vmem S128x2048 .f32) (harg2 : arg2.IsWhole) (arg3 : Memref sig .tc .vmem S2048x2048 .bf16) (harg3 : arg3.IsWhole) (arg4 : Memref sig .tc .vmem S2048x2048 .bf16) (harg4 : arg4.IsWhole) (arg5 : Memref sig .tc .vmem S2048x2048 .bf16) (harg5 : arg5.IsWhole) (arg6 : Memref sig .tc .vmem S2048x2048 .bf16) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S3x2048 .f32) (harg9 : arg9.IsWhole) (arg10 : Memref sig .tc .vmem S128x2048 .f32) (harg10 : arg10.IsWhole)
    (x0 : Vec F S128x2048 .bf16) (x1 : Vec F S128x2048 .f32) (x2 x3 x4 x5 x6 x7 : Vec F S2048x2048 .bf16) (x8 : Vec F S3x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4 x5 x6 x7 x8)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover9 _)

end Cert.KernelIdeal.Frame

end
-- ==== Proof.KIRun.lean ====
/-
  The run of the whole program and its frame.

  The proof data of the one region: every window's array is what the region finds; after the body at grid point t
  each input's buffer still holds its block, and the output's buffer holds the new state computed from the nine
  input blocks at t. With the body's triple at a generic point this gives the library's run of @main, whose post names
  every array at the end; the eight argument arrays end as launched.
-/
import proofs.«139109_j27719718928937_2_alg».proof.Proof.KIHost
import proofs.«139109_j27719718928937_2_alg».proof.Proof.KIBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's proof data -/

/-- On core `c`: the arrays as the region finds them; after the body at point `t` each input's buffer at its
    block and the output's at the new state of the nine input blocks; the invariant is the untouched rest; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

/-! Each input's current staging buffer holds its block at every point. -/
theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d
theorem before6 (c : Dev nD) (t : Fin cfg0.N) (d) : (dats m 0 c).before 6 t d = iblk m c 6 t :=
  before_in6_of m (dats m 0 c) (A_eq m c 6) (after6 m c) t d
theorem before7 (c : Dev nD) (t : Fin cfg0.N) (d) : (dats m 0 c).before 7 t d = iblk m c 7 t :=
  before_in7_of m (dats m 0 c) (A_eq m c 7) (after7 m c) t d
theorem before8 (c : Dev nD) (t : Fin cfg0.N) (d) : (dats m 0 c).before 8 t d = iblk m c 8 t :=
  before_in8_of m (dats m 0 c) (A_eq m c 8) (after8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates without a fault, and every
    final state has every array of the region at what the proof data computes and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without a fault and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Frame

end
-- ==== Proof.Spec.lean ====
/-
  The recurrent cell as ONE function of the eight argument arrays, entry by entry, on the extended reals.

  With x, h : [8192, 2048] (the input and the previous state), three combined weight matrices W : [4096, 2048] whose
  rows 0..2047 meet x and rows 2048..4095 meet h, and three bias vectors b : [2048], entry (p, q) of the new state is
      z = logistic(lin x h Wz bz),   r = logistic(lin x h Wr br),
      n = tanh(lin x (r∘h) Wn bn),   out = (1 − z)·h + z·n,
  where lin a b W bias (p, q) = (Σ_k a(p,k)·W(k,q) + Σ_k b(p,k)·W(2048+k,q)) + bias(q): two contractions over the
  2048 features, added, then the bias. Sums, products and the grouping are exactly these; nothing is rearranged, so no
  entry needs to be finite. The one law stated here: the quotient 1 / (1 + exp(−v)), with the float literal 1.0 for
  both ones, is logistic v at every extended real v.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An activation array [8192, 2048], a combined weight matrix [4096, 2048], a bias vector [2048]. -/
abbrev Act := FVec Ideal (⟨2, ![8192, 2048]⟩ : Shape) .f32
abbrev Wt := FVec Ideal (⟨2, ![4096, 2048]⟩ : Shape) .f32
abbrev Bias := FVec Ideal (⟨1, ![2048]⟩ : Shape) .f32

/-- Row k of the half of a combined weight matrix that meets x, and of the half that meets h. -/
def lo (k : Fin 2048) : Fin 4096 := ⟨k.val, by have := k.isLt; omega⟩
def hi (k : Fin 2048) : Fin 4096 := ⟨2048 + k.val, by have := k.isLt; omega⟩

/-- The row and the column of an entry of an activation array. -/
def row (i : (⟨2, ![8192, 2048]⟩ : Shape).Idx) : Fin 8192 := ⟨(i 0).val, idx2_lt0 i⟩
def col (i : (⟨2, ![8192, 2048]⟩ : Shape).Idx) : Fin 2048 := ⟨(i 1).val, idx2_lt1 i⟩

theorem row_ix2 (p : Fin 8192) (q : Fin 2048) : row (ix2 p q) = p := rfl
theorem col_ix2 (p : Fin 8192) (q : Fin 2048) : col (ix2 p q) = q := rfl

/-- The float literal 1.0 is the real one. -/
theorem one_f32 : Ideal.ofBits .f32 0x3F800000#32 = 1 := IdealRules.sign_bit.ideal_onePat .f32

/-- A gate's pre-activation at (p, q): a's row p against the first 2048 rows of W's column q, plus b's row p against
    the last 2048, plus the bias at q. -/
def lin (a b : Act) (W : Wt) (bias : Bias) (p : Fin 8192) (q : Fin 2048) : EReal :=
  ((∑ k : Fin 2048, a (ix2 p k) * W (ix2 (lo k) q)) + (∑ k : Fin 2048, b (ix2 p k) * W (ix2 (hi k) q))) + bias (ix1 q)

/-- The update gate and the reset gate. -/
def gate (x h : Act) (W : Wt) (bias : Bias) (p : Fin 8192) (q : Fin 2048) : EReal :=
  Ideal.logistic (lin x h W bias p q)

/-- The reset gate times the previous state, as an array. -/
def resetState (x h : Act) (Wr : Wt) (br : Bias) : Act := fun i => gate x h Wr br (row i) (col i) * h i

/-- The candidate state. -/
def cand (x h : Act) (Wr : Wt) (br : Bias) (Wn : Wt) (bn : Bias) (p : Fin 8192) (q : Fin 2048) : EReal :=
  Ideal.tanh (lin x (resetState x h Wr br) Wn bn p q)

/-- The new state: (1 − z)·h + z·n, the one the float literal 1.0. -/
def cell (x h : Act) (Wz : Wt) (bz : Bias) (Wr : Wt) (br : Bias) (Wn : Wt) (bn : Bias) : Act := fun i =>
  (Ideal.ofBits .f32 0x3F800000#32 - gate x h Wz bz (row i) (col i)) * h i
    + gate x h Wz bz (row i) (col i) * cand x h Wr br Wn bn (row i) (col i)

/-- 1 / (1 + exp(−v)), both ones the float literal 1.0, is logistic v. -/
theorem quotient_eq_logistic (v : EReal) :
    Ideal.div (Ideal.ofBits .f32 0x3F800000#32) (Ideal.ofBits .f32 0x3F800000#32 + Ideal.exp (-v)) = Ideal.logistic v := by
  rw [one_f32]; rfl

end Cert.Spec

end
-- ==== Proof.LibNaryThree.lean ====
/-
  A host operation over a LITERAL family of three operands (a concatenation of three arrays), run over a valuation:
  its result is its function applied to the three operands' contents, each read at its own reference — the family
  `![x, a, b]` taken apart at the literals 0, 1, 2, so that each operand's contents can be rewritten further. (The
  library states this for four operands.)
-/
import Idealize.ShloMosaic.Lib.StableHlo.Run

noncomputable section

namespace Idealize.ShloMosaic.StableHlo

open Idealize.SL.Sem

variable {τ : Topo} {sig : RefSig} {Val : EltTy → Type}
variable {x a b y : Ref sig .tc}

/-- The result of an operation over the three operands `![x, a, b]`, at its result reference: its function at the
    operands' contents, operand `k`'s at the reference `k` names. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KIHostValue.lean ====
/-
  What the region finds, entry by entry, as entries of the argument arrays.

  The seventeen host operations before the region only re-lay the arguments: each weight half is a block of 2048 rows
  of a combined matrix (rows k and 2048 + k), a change of float format is the identity on the extended reals, and the
  three bias vectors become the three rows of one array. So every entry of every array the region stages is one entry
  of one argument.
-/
import proofs.«139109_j27719718928937_2_alg».proof.Proof.KIHost
import proofs.«139109_j27719718928937_2_alg».proof.Proof.Spec
import proofs.«139109_j27719718928937_2_alg».proof.Proof.LibNaryThree
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen Cert.KernelIdeal.Frame
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The input, in the matrix unit's format -/

/-- The staged input is x itself: a change of float format is the identity. -/
theorem V_x_apply (c : Dev nD) (i : S8192x2048.Idx) :
    (V m c main_v16 : S8192x2048.Idx → EReal) i = (m ((c : Thread nD τ).loc main_arg0) : S8192x2048.Idx → EReal) i := by
  have e : @Eq (S8192x2048.Idx → EReal) (V m c main_v16)
      (truncf (F := Ideal) .bf16 (m ((c : Thread nD τ).loc main_arg0)) bitsLt_bf16_f32) := by
    dsimp only [V, hostOps0]; after_results
  rw [e]; rfl

/-- The staged previous state is the argument as launched. -/
theorem V_h_apply (c : Dev nD) (i : S8192x2048.Idx) :
    (V m c main_arg1 : S8192x2048.Idx → EReal) i = (m ((c : Thread nD τ).loc main_arg1) : S8192x2048.Idx → EReal) i := by
  rw [V_main_arg1]

/-! ## The six weight halves -/

/-- The update gate's weights that meet x: entry (k, q) of the staged array is entry (k, q) of the combined matrix. -/
theorem V_main_v1_apply (c : Dev nD) (k q : Fin 2048) :
    (V m c main_v1 : S2048x2048.Idx → EReal) (ix2 k q) = (m ((c : Thread nD τ).loc main_arg2) : S4096x2048.Idx → EReal) (ix2 (Spec.lo k) q) := by
  have e : @Eq (S2048x2048.Idx → EReal) (V m c main_v1)
      (truncf (F := Ideal) .bf16 (extractStridedSlice S2048x2048 ![0, 0] (m ((c : Thread nD τ).loc main_arg2)) slices_S4096x2048_S2048x2048_0_0) bitsLt_bf16_f32) := by
    dsimp only [V, hostOps0]; after_results
  rw [e]
  show extractStridedSlice S2048x2048 ![0, 0] (m ((c : Thread nD τ).loc main_arg2)) slices_S4096x2048_S2048x2048_0_0 (ix2 k q) = _
  exact extractStridedSlice_apply ![0, 0] _ slices_S4096x2048_S2048x2048_0_0 (ix2 k q) (ix2 (Spec.lo k) q) (fun a => match a with
    | ⟨0, _⟩ => by show k.val = 0 + k.val; omega
    | ⟨1, _⟩ => by show q.val = 0 + q.val; omega)
/-- The update gate's weights that meet h: entry (k, q) of the staged array is entry (2048 + k, q) of the combined matrix. -/
theorem V_main_v3_apply (c : Dev nD) (k q : Fin 2048) :
    (V m c main_v3 : S2048x2048.Idx → EReal) (ix2 k q) = (m ((c : Thread nD τ).loc main_arg2) : S4096x2048.Idx → EReal) (ix2 (Spec.hi k) q) := by
  have e : @Eq (S2048x2048.Idx → EReal) (V m c main_v3)
      (truncf (F := Ideal) .bf16 (extractStridedSlice S2048x2048 ![2048, 0] (m ((c : Thread nD τ).loc main_arg2)) slices_S4096x2048_S2048x2048_2048_0) bitsLt_bf16_f32) := by
    dsimp only [V, hostOps0]; after_results
  rw [e]
  show extractStridedSlice S2048x2048 ![2048, 0] (m ((c : Thread nD τ).loc main_arg2)) slices_S4096x2048_S2048x2048_2048_0 (ix2 k q) = _
  exact extractStridedSlice_apply ![2048, 0] _ slices_S4096x2048_S2048x2048_2048_0 (ix2 k q) (ix2 (Spec.hi k) q) (fun a => match a with
    | ⟨0, _⟩ => by show 2048 + k.val = 2048 + k.val; rfl
    | ⟨1, _⟩ => by show q.val = 0 + q.val; omega)
/-- The reset gate's weights that meet x: entry (k, q) of the staged array is entry (k, q) of the combined matrix. -/
theorem V_main_v5_apply (c : Dev nD) (k q : Fin 2048) :
    (V m c main_v5 : S2048x2048.Idx → EReal) (ix2 k q) = (m ((c : Thread nD τ).loc main_arg4) : S4096x2048.Idx → EReal) (ix2 (Spec.lo k) q) := by
  have e : @Eq (S2048x2048.Idx → EReal) (V m c main_v5)
      (truncf (F := Ideal) .bf16 (extractStridedSlice S2048x2048 ![0, 0] (m ((c : Thread nD τ).loc main_arg4)) slices_S4096x2048_S2048x2048_0_0) bitsLt_bf16_f32) := by
    dsimp only [V, hostOps0]; after_results
  rw [e]
  show extractStridedSlice S2048x2048 ![0, 0] (m ((c : Thread nD τ).loc main_arg4)) slices_S4096x2048_S2048x2048_0_0 (ix2 k q) = _
  exact extractStridedSlice_apply ![0, 0] _ slices_S4096x2048_S2048x2048_0_0 (ix2 k q) (ix2 (Spec.lo k) q) (fun a => match a with
    | ⟨0, _⟩ => by show k.val = 0 + k.val; omega
    | ⟨1, _⟩ => by show q.val = 0 + q.val; omega)
/-- The reset gate's weights that meet h: entry (k, q) of the staged array is entry (2048 + k, q) of the combined matrix. -/
theorem V_main_v7_apply (c : Dev nD) (k q : Fin 2048) :
    (V m c main_v7 : S2048x2048.Idx → EReal) (ix2 k q) = (m ((c : Thread nD τ).loc main_arg4) : S4096x2048.Idx → EReal) (ix2 (Spec.hi k) q) := by
  have e : @Eq (S2048x2048.Idx → EReal) (V m c main_v7)
      (truncf (F := Ideal) .bf16 (extractStridedSlice S2048x2048 ![2048, 0] (m ((c : Thread nD τ).loc main_arg4)) slices_S4096x2048_S2048x2048_2048_0) bitsLt_bf16_f32) := by
    dsimp only [V, hostOps0]; after_results
  rw [e]
  show extractStridedSlice S2048x2048 ![2048, 0] (m ((c : Thread nD τ).loc main_arg4)) slices_S4096x2048_S2048x2048_2048_0 (ix2 k q) = _
  exact extractStridedSlice_apply ![2048, 0] _ slices_S4096x2048_S2048x2048_2048_0 (ix2 k q) (ix2 (Spec.hi k) q) (fun a => match a with
    | ⟨0, _⟩ => by show 2048 + k.val = 2048 + k.val; rfl
    | ⟨1, _⟩ => by show q.val = 0 + q.val; omega)
/-- The candidate's weights that meet x: entry (k, q) of the staged array is entry (k, q) of the combined matrix. -/
theorem V_main_v9_apply (c : Dev nD) (k q : Fin 2048) :
    (V m c main_v9 : S2048x2048.Idx → EReal) (ix2 k q) = (m ((c : Thread nD τ).loc main_arg6) : S4096x2048.Idx → EReal) (ix2 (Spec.lo k) q) := by
  have e : @Eq (S2048x2048.Idx → EReal) (V m c main_v9)
      (truncf (F := Ideal) .bf16 (extractStridedSlice S2048x2048 ![0, 0] (m ((c : Thread nD τ).loc main_arg6)) slices_S4096x2048_S2048x2048_0_0) bitsLt_bf16_f32) := by
    dsimp only [V, hostOps0]; after_results
  rw [e]
  show extractStridedSlice S2048x2048 ![0, 0] (m ((c : Thread nD τ).loc main_arg6)) slices_S4096x2048_S2048x2048_0_0 (ix2 k q) = _
  exact extractStridedSlice_apply ![0, 0] _ slices_S4096x2048_S2048x2048_0_0 (ix2 k q) (ix2 (Spec.lo k) q) (fun a => match a with
    | ⟨0, _⟩ => by show k.val = 0 + k.val; omega
    | ⟨1, _⟩ => by show q.val = 0 + q.val; omega)
/-- The candidate's weights that meet the reset state: entry (k, q) of the staged array is entry (2048 + k, q) of the combined matrix. -/
theorem V_main_v11_apply (c : Dev nD) (k q : Fin 2048) :
    (V m c main_v11 : S2048x2048.Idx → EReal) (ix2 k q) = (m ((c : Thread nD τ).loc main_arg6) : S4096x2048.Idx → EReal) (ix2 (Spec.hi k) q) := by
  have e : @Eq (S2048x2048.Idx → EReal) (V m c main_v11)
      (truncf (F := Ideal) .bf16 (extractStridedSlice S2048x2048 ![2048, 0] (m ((c : Thread nD τ).loc main_arg6)) slices_S4096x2048_S2048x2048_2048_0) bitsLt_bf16_f32) := by
    dsimp only [V, hostOps0]; after_results
  rw [e]
  show extractStridedSlice S2048x2048 ![2048, 0] (m ((c : Thread nD τ).loc main_arg6)) slices_S4096x2048_S2048x2048_2048_0 (ix2 k q) = _
  exact extractStridedSlice_apply ![2048, 0] _ slices_S4096x2048_S2048x2048_2048_0 (ix2 k q) (ix2 (Spec.hi k) q) (fun a => match a with
    | ⟨0, _⟩ => by show 2048 + k.val = 2048 + k.val; rfl
    | ⟨1, _⟩ => by show q.val = 0 + q.val; omega)

/-! ## The stacked biases -/

/-- The three bias vectors, each laid as one row [1, 2048]. -/
abbrev biasPieces (c : Dev nD) : List ((s : Shape) × (s.Idx → EReal)) :=
  [⟨S1x2048, broadcastInDim S1x2048 ![1] bcast_S2048_S1x2048_1 (m ((c : Thread nD τ).loc main_arg3))⟩,
    ⟨S1x2048, broadcastInDim S1x2048 ![1] bcast_S2048_S1x2048_1 (m ((c : Thread nD τ).loc main_arg5))⟩,
    ⟨S1x2048, broadcastInDim S1x2048 ![1] bcast_S2048_S1x2048_1 (m ((c : Thread nD τ).loc main_arg7))⟩]

/-- The stacked biases are the three bias vectors, each laid as one row, one above the other. -/
theorem V_bias (c : Dev nD) : @Eq (S3x2048.Idx → EReal) (V m c main_v15)
    (concatenate S3x2048 0 (biasPieces m c) concatenates_S1x2048_S1x2048_S1x2048_S3x2048_d0) := by
  dsimp only [V, hostOps0]
  simp only [after_cons, after_nil]
  rw [unary_result_ne]; rotate_left; decide
  rw [nary3_result]
  repeat (first | rw [unary_result] | (rw [unary_result_ne]; rotate_left; decide))
  rfl

/-- Row 0 of the stacked biases is the update gate's bias. -/
theorem V_bias_row0 (c : Dev nD) (q : Fin 2048) :
    (V m c main_v15 : S3x2048.Idx → EReal) (ix2 (0 : Fin 3) q) = (m ((c : Thread nD τ).loc main_arg3) : S2048.Idx → EReal) (ix1 q) := by
  rw [V_bias m c]
  refine (concatenate_apply_piece (0 : Fin S3x2048.rank) (biasPieces m c) concatenates_S1x2048_S1x2048_S1x2048_S3x2048_d0 (ix2 (0 : Fin 3) q)
    0 (by show 0 < 3; omega) S1x2048 _ rfl rfl 0 (by rfl) (ix2 (0 : Fin 1) q) (fun b hb => ?_) (by rfl)).trans ?_
  · match b with
    | ⟨0, _⟩ => exact absurd rfl hb
    | ⟨1, _⟩ => rfl
  · exact broadcastInDim_apply ![1] bcast_S2048_S1x2048_1 _ (ix2 (0 : Fin 1) q) (ix1 q) (fun a => match a with
      | ⟨0, _⟩ => by show q.val = if (2048 : Nat) = 1 then 0 else q.val; rw [if_neg (by decide)])
/-- Row 1 of the stacked biases is the reset gate's bias. -/
theorem V_bias_row1 (c : Dev nD) (q : Fin 2048) :
    (V m c main_v15 : S3x2048.Idx → EReal) (ix2 (1 : Fin 3) q) = (m ((c : Thread nD τ).loc main_arg5) : S2048.Idx → EReal) (ix1 q) := by
  rw [V_bias m c]
  refine (concatenate_apply_piece (0 : Fin S3x2048.rank) (biasPieces m c) concatenates_S1x2048_S1x2048_S1x2048_S3x2048_d0 (ix2 (1 : Fin 3) q)
    1 (by show 1 < 3; omega) S1x2048 _ rfl rfl 1 (by rfl) (ix2 (0 : Fin 1) q) (fun b hb => ?_) (by rfl)).trans ?_
  · match b with
    | ⟨0, _⟩ => exact absurd rfl hb
    | ⟨1, _⟩ => rfl
  · exact broadcastInDim_apply ![1] bcast_S2048_S1x2048_1 _ (ix2 (0 : Fin 1) q) (ix1 q) (fun a => match a with
      | ⟨0, _⟩ => by show q.val = if (2048 : Nat) = 1 then 0 else q.val; rw [if_neg (by decide)])
/-- Row 2 of the stacked biases is the candidate's bias. -/
theorem V_bias_row2 (c : Dev nD) (q : Fin 2048) :
    (V m c main_v15 : S3x2048.Idx → EReal) (ix2 (2 : Fin 3) q) = (m ((c : Thread nD τ).loc main_arg7) : S2048.Idx → EReal) (ix1 q) := by
  rw [V_bias m c]
  refine (concatenate_apply_piece (0 : Fin S3x2048.rank) (biasPieces m c) concatenates_S1x2048_S1x2048_S1x2048_S3x2048_d0 (ix2 (2 : Fin 3) q)
    2 (by show 2 < 3; omega) S1x2048 _ rfl rfl 2 (by rfl) (ix2 (0 : Fin 1) q) (fun b hb => ?_) (by rfl)).trans ?_
  · match b with
    | ⟨0, _⟩ => exact absurd rfl hb
    | ⟨1, _⟩ => rfl
  · exact broadcastInDim_apply ![1] bcast_S2048_S1x2048_1 _ (ix2 (0 : Fin 1) q) (ix1 q) (fun a => match a with
      | ⟨0, _⟩ => by show q.val = if (2048 : Nat) = 1 then 0 else q.val; rw [if_neg (by decide)])

end Cert.KernelIdeal.HostValue

end
-- ==== Proof.KIBlocks.lean ====
/-
  Where each block sits, and what each input block holds.

  The grid has 64 points. At point t the windows of x, of h and of the result are rows 128·t .. 128·t + 127 of their
  arrays (all 2048 columns); the six weight halves and the stacked biases are staged whole at every point. So entry
  (a, k) of an activation block is entry (128·t + a, k) of its array, an entry of a resident block is the same entry of
  its array, and the 64 result blocks, 128 rows each, cover all 8192 rows. Through the host operations every such entry
  is an entry of an argument array.
-/
import proofs.«139109_j27719718928937_2_alg».proof.Proof.KIRun
import proofs.«139109_j27719718928937_2_alg».proof.Proof.KIHostValue
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Frame Cert.KernelIdeal.HostValue
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-! ## The index maps over the grid -/

/-- The windows' block indices at every point: (t, 0) for x, h and the result, (0, 0) for the resident windows. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem idx_0 (t : Fin cfg0.N) : win0_0.index t (0 : Fin 2) = t.val ∧ win0_0.index t (1 : Fin 2) = 0 ∧ True := by
  have h := idx_facts t
  exact ⟨h.1, h.2.1, trivial⟩
theorem idx_1 (t : Fin cfg0.N) : win0_1.index t (0 : Fin 2) = t.val ∧ win0_1.index t (1 : Fin 2) = 0 ∧ True := by
  have h := idx_facts t
  exact ⟨h.2.2.1, h.2.2.2.1, trivial⟩
theorem idx_9 (t : Fin cfg0.N) : win0_9.index t (0 : Fin 2) = t.val ∧ win0_9.index t (1 : Fin 2) = 0 ∧ True := by
  have h := idx_facts t
  exact ⟨h.2.2.2.2.1, h.2.2.2.2.2.1, trivial⟩
theorem idx_2 (t : Fin cfg0.N) : win0_2.index t (0 : Fin 2) = 0 ∧ win0_2.index t (1 : Fin 2) = 0 ∧ True := by
  have h := idx_facts t
  exact ⟨h.2.2.2.2.2.2.1, h.2.2.2.2.2.2.2.1, trivial⟩
theorem idx_3 (t : Fin cfg0.N) : win0_3.index t (0 : Fin 2) = 0 ∧ win0_3.index t (1 : Fin 2) = 0 ∧ True := by
  have h := idx_facts t
  exact ⟨h.2.2.2.2.2.2.2.2.1, h.2.2.2.2.2.2.2.2.2.1, trivial⟩
theorem idx_4 (t : Fin cfg0.N) : win0_4.index t (0 : Fin 2) = 0 ∧ win0_4.index t (1 : Fin 2) = 0 ∧ True := by
  have h := idx_facts t
  exact ⟨h.2.2.2.2.2.2.2.2.2.2.1, h.2.2.2.2.2.2.2.2.2.2.2.1, trivial⟩
theorem idx_5 (t : Fin cfg0.N) : win0_5.index t (0 : Fin 2) = 0 ∧ win0_5.index t (1 : Fin 2) = 0 ∧ True := by
  have h := idx_facts t
  exact ⟨h.2.2.2.2.2.2.2.2.2.2.2.2.1, h.2.2.2.2.2.2.2.2.2.2.2.2.2.1, trivial⟩
theorem idx_6 (t : Fin cfg0.N) : win0_6.index t (0 : Fin 2) = 0 ∧ win0_6.index t (1 : Fin 2) = 0 ∧ True := by
  have h := idx_facts t
  exact ⟨h.2.2.2.2.2.2.2.2.2.2.2.2.2.2.1, h.2.2.2.2.2.2.2.2.2.2.2.2.2.2.2.1, trivial⟩
theorem idx_7 (t : Fin cfg0.N) : win0_7.index t (0 : Fin 2) = 0 ∧ win0_7.index t (1 : Fin 2) = 0 ∧ True := by
  have h := idx_facts t
  exact ⟨h.2.2.2.2.2.2.2.2.2.2.2.2.2.2.2.2.1, h.2.2.2.2.2.2.2.2.2.2.2.2.2.2.2.2.2.1, trivial⟩
theorem idx_8 (t : Fin cfg0.N) : win0_8.index t (0 : Fin 2) = 0 ∧ win0_8.index t (1 : Fin 2) = 0 ∧ True := by
  have h := idx_facts t
  exact ⟨h.2.2.2.2.2.2.2.2.2.2.2.2.2.2.2.2.2.2.1, h.2.2.2.2.2.2.2.2.2.2.2.2.2.2.2.2.2.2.2, trivial⟩

/-- The array row that row a of a block at point t copies. -/
def rowOf (t : Fin cfg0.N) (a : Fin 128) : Fin 8192 :=
  ⟨t.val * 128 + a.val, by have ht : t.val < 64 := lt_of_lt_of_eq t.isLt N_0; have := a.isLt; omega⟩

/-! ## Where a block's entry sits in its array -/

/-- Entry (a, k) of window 0's block at point t sits at row 128·t + a, column k of its array. -/
theorem emb_act0 (t : Fin cfg0.N) (a : Fin 128) (k : Fin 2048) :
    ((cfg0.win 0).blk t).view.emb (ix2 a k) = ix2 (rowOf t a) k := by
  obtain ⟨e0, e1, -⟩ := idx_0 t
  funext d; apply Fin.ext
  match d with
  | ⟨0, _⟩ => show win0_0.index t (0 : Fin 2) * 128 + 1 * a.val = t.val * 128 + a.val; rw [e0]; omega
  | ⟨1, _⟩ => show win0_0.index t (1 : Fin 2) * 2048 + 1 * k.val = k.val; rw [e1]; omega
/-- Entry (a, k) of window 1's block at point t sits at row 128·t + a, column k of its array. -/
theorem emb_act1 (t : Fin cfg0.N) (a : Fin 128) (k : Fin 2048) :
    ((cfg0.win 1).blk t).view.emb (ix2 a k) = ix2 (rowOf t a) k := by
  obtain ⟨e0, e1, -⟩ := idx_1 t
  funext d; apply Fin.ext
  match d with
  | ⟨0, _⟩ => show win0_1.index t (0 : Fin 2) * 128 + 1 * a.val = t.val * 128 + a.val; rw [e0]; omega
  | ⟨1, _⟩ => show win0_1.index t (1 : Fin 2) * 2048 + 1 * k.val = k.val; rw [e1]; omega
/-- Entry (a, k) of window 9's block at point t sits at row 128·t + a, column k of its array. -/
theorem emb_act9 (t : Fin cfg0.N) (a : Fin 128) (k : Fin 2048) :
    ((cfg0.win 9).blk t).view.emb (ix2 a k) = ix2 (rowOf t a) k := by
  obtain ⟨e0, e1, -⟩ := idx_9 t
  funext d; apply Fin.ext
  match d with
  | ⟨0, _⟩ => show win0_9.index t (0 : Fin 2) * 128 + 1 * a.val = t.val * 128 + a.val; rw [e0]; omega
  | ⟨1, _⟩ => show win0_9.index t (1 : Fin 2) * 2048 + 1 * k.val = k.val; rw [e1]; omega

/-! A resident block is its whole array. -/
theorem emb_half2 (t : Fin cfg0.N) (k q : Fin 2048) :
    ((cfg0.win 2).blk t).view.emb (ix2 k q) = ix2 k q := by
  obtain ⟨e0, e1, -⟩ := idx_2 t
  funext d; apply Fin.ext
  match d with
  | ⟨0, _⟩ => show win0_2.index t (0 : Fin 2) * 2048 + 1 * k.val = k.val; rw [e0]; omega
  | ⟨1, _⟩ => show win0_2.index t (1 : Fin 2) * 2048 + 1 * q.val = q.val; rw [e1]; omega
theorem emb_half3 (t : Fin cfg0.N) (k q : Fin 2048) :
    ((cfg0.win 3).blk t).view.emb (ix2 k q) = ix2 k q := by
  obtain ⟨e0, e1, -⟩ := idx_3 t
  funext d; apply Fin.ext
  match d with
  | ⟨0, _⟩ => show win0_3.index t (0 : Fin 2) * 2048 + 1 * k.val = k.val; rw [e0]; omega
  | ⟨1, _⟩ => show win0_3.index t (1 : Fin 2) * 2048 + 1 * q.val = q.val; rw [e1]; omega
theorem emb_half4 (t : Fin cfg0.N) (k q : Fin 2048) :
    ((cfg0.win 4).blk t).view.emb (ix2 k q) = ix2 k q := by
  obtain ⟨e0, e1, -⟩ := idx_4 t
  funext d; apply Fin.ext
  match d with
  | ⟨0, _⟩ => show win0_4.index t (0 : Fin 2) * 2048 + 1 * k.val = k.val; rw [e0]; omega
  | ⟨1, _⟩ => show win0_4.index t (1 : Fin 2) * 2048 + 1 * q.val = q.val; rw [e1]; omega
theorem emb_half5 (t : Fin cfg0.N) (k q : Fin 2048) :
    ((cfg0.win 5).blk t).view.emb (ix2 k q) = ix2 k q := by
  obtain ⟨e0, e1, -⟩ := idx_5 t
  funext d; apply Fin.ext
  match d with
  | ⟨0, _⟩ => show win0_5.index t (0 : Fin 2) * 2048 + 1 * k.val = k.val; rw [e0]; omega
  | ⟨1, _⟩ => show win0_5.index t (1 : Fin 2) * 2048 + 1 * q.val = q.val; rw [e1]; omega
theorem emb_half6 (t : Fin cfg0.N) (k q : Fin 2048) :
    ((cfg0.win 6).blk t).view.emb (ix2 k q) = ix2 k q := by
  obtain ⟨e0, e1, -⟩ := idx_6 t
  funext d; apply Fin.ext
  match d with
  | ⟨0, _⟩ => show win0_6.index t (0 : Fin 2) * 2048 + 1 * k.val = k.val; rw [e0]; omega
  | ⟨1, _⟩ => show win0_6.index t (1 : Fin 2) * 2048 + 1 * q.val = q.val; rw [e1]; omega
theorem emb_half7 (t : Fin cfg0.N) (k q : Fin 2048) :
    ((cfg0.win 7).blk t).view.emb (ix2 k q) = ix2 k q := by
  obtain ⟨e0, e1, -⟩ := idx_7 t
  funext d; apply Fin.ext
  match d with
  | ⟨0, _⟩ => show win0_7.index t (0 : Fin 2) * 2048 + 1 * k.val = k.val; rw [e0]; omega
  | ⟨1, _⟩ => show win0_7.index t (1 : Fin 2) * 2048 + 1 * q.val = q.val; rw [e1]; omega
theorem emb_bias (t : Fin cfg0.N) (r : Fin 3) (q : Fin 2048) :
    ((cfg0.win 8).blk t).view.emb (ix2 r q) = ix2 r q := by
  obtain ⟨e0, e1, -⟩ := idx_8 t
  funext d; apply Fin.ext
  match d with
  | ⟨0, _⟩ => show win0_8.index t (0 : Fin 2) * 3 + 1 * r.val = r.val; rw [e0]; omega
  | ⟨1, _⟩ => show win0_8.index t (1 : Fin 2) * 2048 + 1 * q.val = q.val; rw [e1]; omega

/-! ## Each input block's entry is an argument's entry -/

/-- The block of x at point t, row a: row 128·t + a of x. -/
theorem blk0_read (c : Dev nD) (t : Fin cfg0.N) (a : Fin 128) (k : Fin 2048) :
    iblk m c 0 t (ix2 a k) = (m ((c : Thread nD τ).loc main_arg0) : S8192x2048.Idx → EReal) (ix2 (rowOf t a) k) :=
  (congrArg (V m c main_v16 : S8192x2048.Idx → EReal) (emb_act0 t a k)).trans (V_x_apply m c _)
/-- The block of h at point t, row a: row 128·t + a of h. -/
theorem blk1_read (c : Dev nD) (t : Fin cfg0.N) (a : Fin 128) (k : Fin 2048) :
    iblk m c 1 t (ix2 a k) = (m ((c : Thread nD τ).loc main_arg1) : S8192x2048.Idx → EReal) (ix2 (rowOf t a) k) :=
  (congrArg (V m c main_arg1 : S8192x2048.Idx → EReal) (emb_act1 t a k)).trans (V_h_apply m c _)
/-! The weight halves: rows k of the half that meets x, rows 2048 + k of the half that meets h. -/
theorem blk2_read (c : Dev nD) (t : Fin cfg0.N) (k q : Fin 2048) :
    iblk m c 2 t (ix2 k q) = (m ((c : Thread nD τ).loc main_arg2) : S4096x2048.Idx → EReal) (ix2 (Spec.lo k) q) :=
  (congrArg (V m c main_v1 : S2048x2048.Idx → EReal) (emb_half2 t k q)).trans (V_main_v1_apply m c k q)
theorem blk3_read (c : Dev nD) (t : Fin cfg0.N) (k q : Fin 2048) :
    iblk m c 3 t (ix2 k q) = (m ((c : Thread nD τ).loc main_arg2) : S4096x2048.Idx → EReal) (ix2 (Spec.hi k) q) :=
  (congrArg (V m c main_v3 : S2048x2048.Idx → EReal) (emb_half3 t k q)).trans (V_main_v3_apply m c k q)
theorem blk4_read (c : Dev nD) (t : Fin cfg0.N) (k q : Fin 2048) :
    iblk m c 4 t (ix2 k q) = (m ((c : Thread nD τ).loc main_arg4) : S4096x2048.Idx → EReal) (ix2 (Spec.lo k) q) :=
  (congrArg (V m c main_v5 : S2048x2048.Idx → EReal) (emb_half4 t k q)).trans (V_main_v5_apply m c k q)
theorem blk5_read (c : Dev nD) (t : Fin cfg0.N) (k q : Fin 2048) :
    iblk m c 5 t (ix2 k q) = (m ((c : Thread nD τ).loc main_arg4) : S4096x2048.Idx → EReal) (ix2 (Spec.hi k) q) :=
  (congrArg (V m c main_v7 : S2048x2048.Idx → EReal) (emb_half5 t k q)).trans (V_main_v7_apply m c k q)
theorem blk6_read (c : Dev nD) (t : Fin cfg0.N) (k q : Fin 2048) :
    iblk m c 6 t (ix2 k q) = (m ((c : Thread nD τ).loc main_arg6) : S4096x2048.Idx → EReal) (ix2 (Spec.lo k) q) :=
  (congrArg (V m c main_v9 : S2048x2048.Idx → EReal) (emb_half6 t k q)).trans (V_main_v9_apply m c k q)
theorem blk7_read (c : Dev nD) (t : Fin cfg0.N) (k q : Fin 2048) :
    iblk m c 7 t (ix2 k q) = (m ((c : Thread nD τ).loc main_arg6) : S4096x2048.Idx → EReal) (ix2 (Spec.hi k) q) :=
  (congrArg (V m c main_v11 : S2048x2048.Idx → EReal) (emb_half7 t k q)).trans (V_main_v11_apply m c k q)
/-! The three bias rows. -/
theorem blk8_row0 (c : Dev nD) (t : Fin cfg0.N) (q : Fin 2048) :
    iblk m c 8 t (ix2 (0 : Fin 3) q) = (m ((c : Thread nD τ).loc main_arg3) : S2048.Idx → EReal) (ix1 q) :=
  (congrArg (V m c main_v15 : S3x2048.Idx → EReal) (emb_bias t 0 q)).trans (V_bias_row0 m c q)
theorem blk8_row1 (c : Dev nD) (t : Fin cfg0.N) (q : Fin 2048) :
    iblk m c 8 t (ix2 (1 : Fin 3) q) = (m ((c : Thread nD τ).loc main_arg5) : S2048.Idx → EReal) (ix1 q) :=
  (congrArg (V m c main_v15 : S3x2048.Idx → EReal) (emb_bias t 1 q)).trans (V_bias_row1 m c q)
theorem blk8_row2 (c : Dev nD) (t : Fin cfg0.N) (q : Fin 2048) :
    iblk m c 8 t (ix2 (2 : Fin 3) q) = (m ((c : Thread nD τ).loc main_arg7) : S2048.Idx → EReal) (ix1 q) :=
  (congrArg (V m c main_v15 : S3x2048.Idx → EReal) (emb_bias t 2 q)).trans (V_bias_row2 m c q)

/-! ## The result's blocks cover its array -/

/-- An entry of the result array is in point t's block iff its row is among rows 128·t .. 128·t + 127. -/
theorem mem_blk9 (t : Fin cfg0.N) (i : S8192x2048.Idx) :
    i ∈ ((cfg0.win 9).blk t).view.set ↔ ∀ a : Fin 2, win0_9.index t a * S128x2048.size a ≤ (i a).val ∧ (i a).val < win0_9.index t a * S128x2048.size a + S128x2048.size a := by
  show i ∈ ((View.whole main_v17).slice (win0_9.rect t)).set ↔ _
  rw [View.set_slice_whole, Rect.mem_set_unit]
  exact Iff.rfl

/-- Every entry of the result array is in the block of the point its row falls in: point (row / 128). -/
theorem cover9 (i : S8192x2048.Idx) : ∃ t : Fin cfg0.N, (cfg0.win 9).flush t = true ∧ i ∈ ((cfg0.win 9).blk t).view.set := by
  have hi0 : (i 0).val < 8192 := (i 0).isLt
  have hi1 : (i 1).val < 2048 := (i 1).isLt
  have hN : cfg0.N = 64 := N_0
  let t : Fin cfg0.N := ⟨(i 0).val / 128, by rw [hN]; omega⟩
  obtain ⟨e0, e1, -⟩ := idx_9 t
  have et : t.val = (i 0).val / 128 := rfl
  refine ⟨t, flush0_9 t, ?_⟩
  rw [mem_blk9]
  intro a
  match a with
  | ⟨0, _⟩ => show win0_9.index t (0 : Fin 2) * 128 ≤ (i 0).val ∧ (i 0).val < win0_9.index t (0 : Fin 2) * 128 + 128; rw [e0, et]; omega
  | ⟨1, _⟩ => show win0_9.index t (1 : Fin 2) * 2048 ≤ (i 1).val ∧ (i 1).val < win0_9.index t (1 : Fin 2) * 2048 + 2048; rw [e1]; omega

end Cert.KernelIdeal.Blocks

end
-- ==== Proof.BlockSpec.lean ====
/-
  One grid point's share of the cell, from that point's blocks alone.

  A grid point holds 128 rows of x and of h (blocks [128, 2048]), the six weight halves whole ([2048, 2048] each)
  and the three bias rows ([3, 2048]). Entry (p, q) of its result needs row p of its two activation blocks, column q of
  the halves, and — through the reset gate — the whole row p again, so a row never leaves its block: the block's
  result is the whole-array cell at the block's rows, once each block entry is named as the array entry it is a copy
  of. Sums, products and their grouping are the same on both sides; the proof only renames entries under the sums.
-/
import proofs.«139109_j27719718928937_2_alg».proof.Proof.Spec

noncomputable section

open scoped BigOperators

namespace Cert.BlockSpec

open Idealize.ShloMosaic Idealize.ShloMosaic.ValueIdx Cert.Spec

/-- A block of 128 activation rows, a weight half, the three stacked bias rows. -/
abbrev Blk := (⟨2, ![128, 2048]⟩ : Shape).Idx → EReal
abbrev Half := (⟨2, ![2048, 2048]⟩ : Shape).Idx → EReal
abbrev Rows3 := (⟨2, ![3, 2048]⟩ : Shape).Idx → EReal

/-- The row and the column of a block entry. -/
def brow (i : (⟨2, ![128, 2048]⟩ : Shape).Idx) : Fin 128 := ⟨(i 0).val, idx2_lt0 i⟩
def bcol (i : (⟨2, ![128, 2048]⟩ : Shape).Idx) : Fin 2048 := ⟨(i 1).val, idx2_lt1 i⟩

theorem brow_ix2 (p : Fin 128) (q : Fin 2048) : brow (ix2 p q) = p := rfl
theorem bcol_ix2 (p : Fin 128) (q : Fin 2048) : bcol (ix2 p q) = q := rfl

/-- A gate's pre-activation at (p, q) of the block: row p of `a` against column q of `Wa`, plus row p of `b`
    against column q of `Wb`, plus bias row `r` at q. -/
def blin (a b : Blk) (Wa Wb : Half) (bias : Rows3) (r : Fin 3) (p : Fin 128) (q : Fin 2048) : EReal :=
  ((∑ k : Fin 2048, a (ix2 p k) * Wa (ix2 k q)) + (∑ k : Fin 2048, b (ix2 p k) * Wb (ix2 k q))) + bias (ix2 r q)

def bgate (a b : Blk) (Wa Wb : Half) (bias : Rows3) (r : Fin 3) (p : Fin 128) (q : Fin 2048) : EReal :=
  Ideal.logistic (blin a b Wa Wb bias r p q)

/-- The reset gate times the block of the previous state. -/
def bresetState (x h : Blk) (Wrx Wrh : Half) (bias : Rows3) : Blk := fun i =>
  bgate x h Wrx Wrh bias 1 (brow i) (bcol i) * h i

/-- The block of the new state. -/
def bcell (x h : Blk) (Wzx Wzh Wrx Wrh Wnx Wnh : Half) (bias : Rows3) (p : Fin 128) (q : Fin 2048) : EReal :=
  (Ideal.ofBits .f32 0x3F800000#32 - bgate x h Wzx Wzh bias 0 p q) * h (ix2 p q)
    + bgate x h Wzx Wzh bias 0 p q * Ideal.tanh (blin x (bresetState x h Wrx Wrh bias) Wnx Wnh bias 2 p q)

section
variable (x h : Blk) (Wzx Wzh Wrx Wrh Wnx Wnh : Half) (bias : Rows3)
variable (X H : Act) (Wz : Wt) (bz : Bias) (Wr : Wt) (br : Bias) (Wn : Wt) (bn : Bias)

/-- The pre-activations agree when the block entries are the named array entries. -/
theorem blin_eq (a b : Blk) (Wa Wb : Half) (r : Fin 3) (A B : Act) (W : Wt) (bv : Bias) (p : Fin 128) (P : Fin 8192)
    (ha : ∀ k, a (ix2 p k) = A (ix2 P k)) (hb : ∀ k, b (ix2 p k) = B (ix2 P k))
    (hWa : ∀ k q, Wa (ix2 k q) = W (ix2 (lo k) q)) (hWb : ∀ k q, Wb (ix2 k q) = W (ix2 (hi k) q))
    (hr : ∀ q, bias (ix2 r q) = bv (ix1 q)) (q : Fin 2048) :
    blin a b Wa Wb bias r p q = lin A B W bv P q := by
  unfold blin lin
  rw [hr q]
  congr 2
  · exact Finset.sum_congr rfl fun k _ => by rw [ha k, hWa k q]
  · exact Finset.sum_congr rfl fun k _ => by rw [hb k, hWb k q]

/-- The block's result at (p, q) is the whole-array cell at (P, q), P the array row that block row p copies. -/
theorem bcell_eq (p : Fin 128) (P : Fin 8192)
    (hx : ∀ k, x (ix2 p k) = X (ix2 P k)) (hh : ∀ k, h (ix2 p k) = H (ix2 P k))
    (hzx : ∀ k q, Wzx (ix2 k q) = Wz (ix2 (lo k) q)) (hzh : ∀ k q, Wzh (ix2 k q) = Wz (ix2 (hi k) q))
    (hrx : ∀ k q, Wrx (ix2 k q) = Wr (ix2 (lo k) q)) (hrh : ∀ k q, Wrh (ix2 k q) = Wr (ix2 (hi k) q))
    (hnx : ∀ k q, Wnx (ix2 k q) = Wn (ix2 (lo k) q)) (hnh : ∀ k q, Wnh (ix2 k q) = Wn (ix2 (hi k) q))
    (hb0 : ∀ q, bias (ix2 0 q) = bz (ix1 q)) (hb1 : ∀ q, bias (ix2 1 q) = br (ix1 q)) (hb2 : ∀ q, bias (ix2 2 q) = bn (ix1 q))
    (q : Fin 2048) :
    bcell x h Wzx Wzh Wrx Wrh Wnx Wnh bias p q = cell X H Wz bz Wr br Wn bn (ix2 P q) := by
  have hz : ∀ q', bgate x h Wzx Wzh bias 0 p q' = gate X H Wz bz P q' := fun q' => by
    unfold bgate gate; rw [blin_eq bias x h Wzx Wzh 0 X H Wz bz p P hx hh hzx hzh hb0 q']
  have hrs : ∀ k, bresetState x h Wrx Wrh bias (ix2 p k) = resetState X H Wr br (ix2 P k) := fun k => by
    unfold bresetState resetState
    rw [brow_ix2, bcol_ix2, row_ix2, col_ix2, hh k]
    unfold bgate gate; rw [blin_eq bias x h Wrx Wrh 1 X H Wr br p P hx hh hrx hrh hb1 k]
  unfold bcell cell cand
  rw [row_ix2, col_ix2, hz q, hh q,
    blin_eq bias x (bresetState x h Wrx Wrh bias) Wnx Wnh 2 X (resetState X H Wr br) Wn bn p P hx hrs hnx hnh hb2 q]
end

end Cert.BlockSpec

end
-- ==== Proof.KIPayload.lean ====
/-
  The kernel body's one stored value, read entry by entry, is the block cell of the block specification.

  The body stores over its whole output buffer ONE pure term of its loads: with x, h a block of 128 rows of the input
  and of the previous state, six weight halves [2048, 2048] and the three stacked bias rows,
      z = logistic(x·Wzx + h·Wzh + bias row 0),   r = logistic(x·Wrx + h·Wrh + bias row 1),
      n = tanh(x·Wnx + (r∘h)·Wnh + bias row 2),   out = (1.0 − z)∘h + z∘n.
  Read at entry (p, q):
  * a store over the whole buffer leaves its payload, and a load of a whole buffer reads the buffer; a load of one
    bias row reads, at (0, q), the stacked rows at (r, q);
  * a shape cast to the same shape is the identity, and a narrowing of the format is the identity on extended reals;
  * a matrix product into the zero accumulator is, at (p, q), the sum over k of left(p, k)·right(k, q): the zero
    literal is the real zero, and the one contracted axis is indexed by k;
  * a [1, 2048] row broadcast to [128, 2048] is read at (0, q);
  * sums, products, differences, logistic and tanh act entry by entry.
  After these readings the sums, the products and their grouping are literally the block specification's; nothing is
  rearranged, so no entry needs to be finite.
-/
import proofs.«139109_j27719718928937_2_alg».proof.Proof.KIBody
import proofs.«139109_j27719718928937_2_alg».proof.Proof.BlockSpec
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Cert.KernelIdeal.Frame Idealize.ShloMosaic Idealize.ShloMosaic.TcCoe Idealize.ShloMosaic.ValueIdx

/-- The left operand's index at result entry i and contraction index c: its row is i's row … -/
theorem lhs0 (i : S128x2048.Idx) (c : dot_S128x2048_S2048x2048_S128x2048_1_0_0_1_n_n.contr.Idx) : (dot_S128x2048_S2048x2048_S128x2048_1_0_0_1_n_n.lhsIdx i c 0).val = (i 0).val := by
  unfold DotDims.lhsIdx
  rw [dif_neg (show ¬(0 : Fin S128x2048.rank) ∈ dot_S128x2048_S2048x2048_S128x2048_1_0_0_1_n_n.lhsBatch by decide),
    dif_pos (show (0 : Fin S128x2048.rank) ∈ dot_S128x2048_S2048x2048_S128x2048_1_0_0_1_n_n.lhsNonContracting by decide)]
  rfl

/-- … and its column is the contraction index. -/
theorem lhs1 (i : S128x2048.Idx) (c : dot_S128x2048_S2048x2048_S128x2048_1_0_0_1_n_n.contr.Idx) : (dot_S128x2048_S2048x2048_S128x2048_1_0_0_1_n_n.lhsIdx i c 1).val = (c ⟨0, by decide⟩).val :=
  dot_S128x2048_S2048x2048_S128x2048_1_0_0_1_n_n.lhsIdx_val_of_single rfl i c

/-- The right operand's index: its row is the contraction index … -/
theorem rhs0 (i : S128x2048.Idx) (c : dot_S128x2048_S2048x2048_S128x2048_1_0_0_1_n_n.contr.Idx) : (dot_S128x2048_S2048x2048_S128x2048_1_0_0_1_n_n.rhsIdx i c 0).val = (c ⟨0, by decide⟩).val :=
  dot_S128x2048_S2048x2048_S128x2048_1_0_0_1_n_n.rhsIdx_val_of_single rfl i c

/-- … and its column is i's column. -/
theorem rhs1 (i : S128x2048.Idx) (c : dot_S128x2048_S2048x2048_S128x2048_1_0_0_1_n_n.contr.Idx) : (dot_S128x2048_S2048x2048_S128x2048_1_0_0_1_n_n.rhsIdx i c 1).val = (i 1).val := by
  unfold DotDims.rhsIdx
  rw [dif_neg (show ¬(1 : Fin S2048x2048.rank) ∈ dot_S128x2048_S2048x2048_S128x2048_1_0_0_1_n_n.rhsBatch by decide),
    dif_pos (show (1 : Fin S2048x2048.rank) ∈ dot_S128x2048_S2048x2048_S128x2048_1_0_0_1_n_n.rhsNonContracting by decide)]
  rfl

/-- A matrix product into the zero accumulator, at (p, q): Σ_k l(p, k)·r(k, q). The zero literal is the real zero; the
    contracted shape has one axis of extent 2048, so the sum over it is the sum over k : Fin 2048. -/
theorem mm_apply (l : FVec Ideal S128x2048 .bf16) (r : FVec Ideal S2048x2048 .bf16) (p : Fin 128) (q : Fin 2048) :
    matmul dot_S128x2048_S2048x2048_S128x2048_1_0_0_1_n_n none l r (constant (F := Ideal) S128x2048 .f32 0x00000000#32) (ix2 p q)
      = ∑ k : Fin 2048, l (ix2 p k) * r (ix2 k q) := by
  show FloatOps.matmul dot_S128x2048_S2048x2048_S128x2048_1_0_0_1_n_n none l r (constant (F := Ideal) S128x2048 .f32 0x00000000#32) (ix2 p q) = _
  rw [Ideal.matmul_constant_zero_apply, ← Equiv.sum_comp (ValueIdx.contrEquiv1 dot_S128x2048_S2048x2048_S128x2048_1_0_0_1_n_n 2048 rfl rfl).symm]
  refine Finset.sum_congr rfl fun k _ => ?_
  have hk := ValueIdx.contrEquiv1_symm_val dot_S128x2048_S2048x2048_S128x2048_1_0_0_1_n_n 2048 rfl rfl k
  have el : dot_S128x2048_S2048x2048_S128x2048_1_0_0_1_n_n.lhsIdx (ix2 p q) ((ValueIdx.contrEquiv1 dot_S128x2048_S2048x2048_S128x2048_1_0_0_1_n_n 2048 rfl rfl).symm k) = ix2 p k :=
    funext fun a => Fin.ext (by
      match a with
      | ⟨0, _⟩ => exact lhs0 _ _
      | ⟨1, _⟩ => exact (lhs1 _ _).trans hk)
  have er : dot_S128x2048_S2048x2048_S128x2048_1_0_0_1_n_n.rhsIdx (ix2 p q) ((ValueIdx.contrEquiv1 dot_S128x2048_S2048x2048_S128x2048_1_0_0_1_n_n 2048 rfl rfl).symm k) = ix2 k q :=
    funext fun a => Fin.ext (by
      match a with
      | ⟨0, _⟩ => exact (rhs0 _ _).trans hk
      | ⟨1, _⟩ => exact rhs1 _ _)
  rw [el, er]

/-- A load of bias row 0 reads, at (0, q), the stacked rows at (0, q): the row's rectangle sits at offset (0, 0) with unit
    strides. -/
theorem ld_rB0 (x8 : Vec Ideal S3x2048 .f32) (q : Fin 2048) :
    View.ld x8 rB0 (ix2 (0 : Fin 1) q) = x8 (ix2 (0 : Fin 3) q) := by
  show x8 (rB0.emb (ix2 (0 : Fin 1) q)) = _
  refine congrArg x8 (funext fun a => Fin.ext ?_)
  match a with
  | ⟨0, _⟩ => rfl
  | ⟨1, _⟩ => show 0 + 1 * q.val = q.val; omega

/-- Row 1: offset (1, 0). -/
theorem ld_rB1 (x8 : Vec Ideal S3x2048 .f32) (q : Fin 2048) :
    View.ld x8 rB1 (ix2 (0 : Fin 1) q) = x8 (ix2 (1 : Fin 3) q) := by
  show x8 (rB1.emb (ix2 (0 : Fin 1) q)) = _
  refine congrArg x8 (funext fun a => Fin.ext ?_)
  match a with
  | ⟨0, _⟩ => rfl
  | ⟨1, _⟩ => show 0 + 1 * q.val = q.val; omega

/-- Row 2: offset (2, 0). -/
theorem ld_rB2 (x8 : Vec Ideal S3x2048 .f32) (q : Fin 2048) :
    View.ld x8 rB2 (ix2 (0 : Fin 1) q) = x8 (ix2 (2 : Fin 3) q) := by
  show x8 (rB2.emb (ix2 (0 : Fin 1) q)) = _
  refine congrArg x8 (funext fun a => Fin.ext ?_)
  match a with
  | ⟨0, _⟩ => rfl
  | ⟨1, _⟩ => show 0 + 1 * q.val = q.val; omega

/-- A shape cast of a [128, 2048] vector to its own shape is the vector. -/
theorem pay2_eq (v : Vec Ideal S128x2048 .bf16) : k0_pay2 v = v := by
  unfold k0_pay2; exact shapeCast_self _ _

/-- The same for a [1, 2048] row. -/
theorem pay4_eq (v : Vec Ideal S1x2048 .f32) : k0_pay4 v = v := by
  unfold k0_pay4; exact shapeCast_self _ _

/-- The same for a [2048, 2048] weight half. -/
theorem pay7_eq (v : Vec Ideal S2048x2048 .bf16) : k0_pay7 v = v := by
  unfold k0_pay7; exact shapeCast_self _ _

/-- Narrowing the previous state's format is the identity on extended reals, entry by entry. -/
theorem pay3_apply (v : Vec Ideal S128x2048 .f32) (i : S128x2048.Idx) : k0_pay3 v i = v i := rfl

/-- A [1, 2048] row broadcast to [128, 2048] is read, at (p, q), at (0, q): the unit axis reads 0, the other axis q. -/
theorem bcast_apply (v : FVec Ideal S1x2048 .f32) (p : Fin 128) (q : Fin 2048) :
    broadcastTo S128x2048 v broadcasts_S1x2048_S128x2048 (ix2 p q) = v (ix2 (0 : Fin 1) q) :=
  broadcastTo_apply v _ (ix2 p q) (ix2 (0 : Fin 1) q) (fun a => match a with
    | ⟨0, _⟩ => by show (0 : Nat) = if (1 : Nat) = 1 then 0 else _; rw [if_pos rfl]
    | ⟨1, _⟩ => by show q.val = if (2048 : Nat) = 1 then 0 else q.val; rw [if_neg (by decide)])

/-- The update gate at (p, q): logistic of (x's row p against column q of the first half, plus h's row p against column q of
    the second half, plus the bias row at q). -/
theorem pay5_apply (v0 : Vec Ideal S128x2048 .bf16) (v2 : Vec Ideal S128x2048 .f32) (v4 : Vec Ideal S1x2048 .f32)
    (v10 v13 : Vec Ideal S2048x2048 .bf16) (p : Fin 128) (q : Fin 2048) :
    k0_pay5 v0 v2 v4 v10 v13 (ix2 p q)
      = Ideal.logistic (((∑ k : Fin 2048, v0 (ix2 p k) * v10 (ix2 k q)) + (∑ k : Fin 2048, v2 (ix2 p k) * v13 (ix2 k q)))
          + v4 (ix2 (0 : Fin 1) q)) := by
  unfold k0_pay5
  simp only [shapeCast_self, pay2_eq]
  refine congrArg Ideal.logistic ?_
  rw [ValueIdx.addf_apply, ValueIdx.addf_apply, mm_apply, mm_apply, bcast_apply]
  rfl

/-- The reset gate times the previous state at (p, q): the same logistic, of the second pair of halves and its bias row,
    times h(p, q); the narrowing of the product's format is the identity. -/
theorem pay6_apply (v0 : Vec Ideal S128x2048 .bf16) (v2 : Vec Ideal S128x2048 .f32) (v6 : Vec Ideal S1x2048 .f32)
    (v19 v22 : Vec Ideal S2048x2048 .bf16) (p : Fin 128) (q : Fin 2048) :
    k0_pay6 v0 v2 v6 v19 v22 (ix2 p q)
      = Ideal.logistic (((∑ k : Fin 2048, v0 (ix2 p k) * v19 (ix2 k q)) + (∑ k : Fin 2048, v2 (ix2 p k) * v22 (ix2 k q)))
          + v6 (ix2 (0 : Fin 1) q)) * v2 (ix2 p q) := by
  unfold k0_pay6
  simp only [shapeCast_self, pay2_eq]
  rw [ValueIdx.truncf_apply, ValueIdx.mulf_apply]
  refine congrArg (· * v2 (ix2 p q)) ?_
  refine congrArg Ideal.logistic ?_
  rw [ValueIdx.addf_apply, ValueIdx.addf_apply, mm_apply, mm_apply, bcast_apply]
  rfl

/-- The new state at (p, q) from the two gates' values: (1.0 − z)·h + z·tanh(x·Wnx + (r∘h)·Wnh + bias row), the two
    products read as sums over k. -/
theorem pay1_apply (v1 : FVec Ideal S128x2048 .bf16) (v2 : Vec Ideal S128x2048 .f32) (v9 : FVec Ideal S1x2048 .f32)
    (v28 : FVec Ideal S128x2048 .f32) (v31 : FVec Ideal S128x2048 .bf16) (v33 : FVec Ideal S2048x2048 .bf16)
    (v35 : Vec Ideal S2048x2048 .bf16) (p : Fin 128) (q : Fin 2048) :
    k0_pay1 v1 v2 v9 v28 v31 v33 (constant (F := Ideal) S128x2048 .f32 0x00000000#32) v35 (ix2 p q)
      = (Ideal.ofBits .f32 0x3F800000#32 - v28 (ix2 p q)) * v2 (ix2 p q)
        + v28 (ix2 p q) * Ideal.tanh (((∑ k : Fin 2048, v1 (ix2 p k) * v33 (ix2 k q))
            + (∑ k : Fin 2048, v31 (ix2 p k) * v35 (ix2 k q))) + v9 (ix2 (0 : Fin 1) q)) := by
  unfold k0_pay1
  simp only [shapeCast_self]
  rw [ValueIdx.addf_apply, ValueIdx.mulf_apply, ValueIdx.mulf_apply, ValueIdx.subf_apply]
  refine congrArg (fun t => (Ideal.ofBits .f32 0x3F800000#32 - v28 (ix2 p q)) * v2 (ix2 p q) + v28 (ix2 p q) * Ideal.tanh t) ?_
  rw [ValueIdx.addf_apply, ValueIdx.addf_apply, mm_apply, mm_apply, bcast_apply]

/-- With bias row 1 loaded, the reset gate times h at (p, k) is the block specification's reset state at (p, k) — for every
    k, since the candidate's second product runs over the whole row p. -/
theorem pay6_reset (x0 : Vec Ideal S128x2048 .bf16) (x1 : Vec Ideal S128x2048 .f32) (x4 x5 : Vec Ideal S2048x2048 .bf16)
    (x8 : Vec Ideal S3x2048 .f32) (p : Fin 128) (k : Fin 2048) :
    k0_pay6 x0 x1 (View.ld x8 rB1) x4 x5 (ix2 p k) = BlockSpec.bresetState x0 x1 x4 x5 x8 (ix2 p k) := by
  rw [pay6_apply, ld_rB1]
  rfl

/-- The stored value at (p, q) is the block cell at (p, q): the store leaves its payload, the loads read their buffers,
    and the payload reads as above. -/
theorem out9_apply (x0 : Vec Ideal S128x2048 .bf16) (x1 : Vec Ideal S128x2048 .f32) (x2 x3 x4 x5 x6 x7 : Vec Ideal S2048x2048 .bf16) (x8 : Vec Ideal S3x2048 .f32) (p : Fin 128) (q : Fin 2048) :
    Cert.KernelIdeal.Frame.out9 (F := Ideal) x0 x1 x2 x3 x4 x5 x6 x7 x8 (ix2 p q) = Cert.BlockSpec.bcell x0 x1 x2 x3 x4 x5 x6 x7 x8 p q := by
  have hz : (![0, 0] : Fin 2 → Nat) = fun _ => 0 := funext fun a => by fin_cases a <;> rfl
  unfold out9
  rw [View.canon_unit_zero hz]
  simp only [View.ld_unit_zero (S := S128x2048) hz, View.ld_unit_zero (S := S2048x2048) hz, pay2_eq, pay4_eq, pay7_eq]
  rw [pay1_apply, pay5_apply, ld_rB0, ld_rB2]
  simp only [pay6_reset]
  rfl

end Cert.KernelIdeal.Payload

end
-- ==== Proof.KIValue.lean ====
/-
  The result array after the run is the cell of the arguments.

  At grid point t the body leaves in the output buffer the block-level cell of the nine input blocks; those blocks'
  entries are entries of the arguments (rows 128·t + a of x and h, the weight halves' rows k and 2048 + k, the three
  bias vectors), so the block written back at t is rows 128·t .. 128·t + 127 of the whole-array cell. The 64 blocks
  cover the array, so after the run the result array is the cell of the eight arguments, and the arguments are unchanged.
-/
import proofs.«139109_j27719718928937_2_alg».proof.Proof.KIBlocks
import proofs.«139109_j27719718928937_2_alg».proof.Proof.BlockSpec
import proofs.«139109_j27719718928937_2_alg».proof.Proof.KIPayload

set_option maxRecDepth 16384

noncomputable section

namespace Cert.KernelIdeal.KValue

open Cert.KernelIdeal Cert.KernelIdeal.Gen Cert.KernelIdeal.Frame Cert.KernelIdeal.HostValue Cert.KernelIdeal.Blocks
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- The cell of core `c`'s eight argument arrays as launched. -/
def result (c : Dev nD) : Buf (Elt Ideal) ((c : Thread nD τ).loc main_v17) :=
  Spec.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What point `t` writes back is block `t` of the cell: entry (a, q) of the body's stored value is the block-level
    cell of the input blocks, whose entries are the arguments' entries at row 128·t + a. -/
theorem flushed_eq (c : Dev nD) (t : Fin cfg0.N) :
    (dats m 0 c).flushed 9 t = ((cfg0.win 9).blk t).view.read (Elt Ideal) (result m c) := by
  show (cfg0.win 9).cut (grid0.coords t) ((dats m 0 c).after 9 t) = _
  rw [after9]
  funext j
  obtain ⟨a, q, rfl⟩ : ∃ (a : Fin 128) (q : Fin 2048), j = ix2 a q := ⟨j 0, j 1, eq_ix2 j⟩
  show out9 (iblk m c 0 t) (iblk m c 1 t) (iblk m c 2 t) (iblk m c 3 t) (iblk m c 4 t) (iblk m c 5 t) (iblk m c 6 t) (iblk m c 7 t) (iblk m c 8 t) (ix2 a q) = result m c (((cfg0.win 9).blk t).view.emb (ix2 a q))
  rw [emb_act9 t a q]
  refine (Cert.KernelIdeal.Payload.out9_apply (iblk m c 0 t) (iblk m c 1 t) (iblk m c 2 t) (iblk m c 3 t) (iblk m c 4 t) (iblk m c 5 t) (iblk m c 6 t) (iblk m c 7 t) (iblk m c 8 t) a q).trans ?_
  exact BlockSpec.bcell_eq (iblk m c 0 t) (iblk m c 1 t) (iblk m c 2 t) (iblk m c 3 t) (iblk m c 4 t) (iblk m c 5 t) (iblk m c 6 t) (iblk m c 7 t) (iblk m c 8 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    a (rowOf t a) (blk0_read m c t a) (blk1_read m c t a) (blk2_read m c t) (blk3_read m c t) (blk4_read m c t) (blk5_read m c t)
    (blk6_read m c t) (blk7_read m c t) (blk8_row0 m c t) (blk8_row1 m c t) (blk8_row2 m c t) q

/-- The result array after the run: the 64 written-back blocks cover it, each a block of the cell. -/
theorem final (c : Dev nD) : (dats m 0 c).arrAt 9 cfg0.N = result m c :=
  (dats m 0 c).arrAt_eq_of_cover 9 (result m c) (fun t _ => flushed_eq m c t) cover9

/-- Every weakly fair execution of the program terminates without a fault; the result array ends at the cell of the
    arguments and the eight arguments end as launched. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 9).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.KValue

end
-- ==== Proof.RefValue.lean ====
/-
  The reference program, read entry by entry, is the recurrent cell of the specification.

  For the input x and the previous state h (both [8192, 2048]) the reference forms three pre-activations. Each is the
  sum of two contractions over the 2048 features, plus a bias vector broadcast along the rows: the first contraction
  meets x's row with rows 0..2047 of a combined weight matrix (a slice), the second meets the row of a second array
  with rows 2048..4095 (the other slice). For the update gate z and the reset gate r the second array is h, and the
  pre-activation v goes through 1 / (1 + exp(−v)), both ones the float literal 1.0. For the candidate n the second
  array is r·h (entrywise) and the pre-activation goes through tanh. The result is (1.0 − z)·h + z·n.

  Each operation's value at an index j is read from its operands at an index, outermost operation first. Every index
  function that appears — the row and the contraction index on the left of a contraction, the contraction index and
  the column inside a slice on its right, the column of a twice-broadcast bias — equals, coordinate by coordinate, the
  index the specification writes from `row j`, `col j`, `lo k`, `hi k`. After that the sums, the products and
  their grouping are literally the specification's. The one law used is Spec.quotient_eq_logistic:
  1 / (1 + exp(−v)) = logistic v at every extended real v. Nothing is rearranged, so no entry needs to be finite.
-/
import proofs.«139109_j27719718928937_2_alg».proof.Proof.Gen.ReferenceIdeal.Read
import proofs.«139109_j27719718928937_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx

/-- An activation array [8192, 2048], a combined weight matrix [4096, 2048] and a bias vector [2048], as the reference
    program's argument types. They are the specification's `Act`, `Wt`, `Bias` by unfolding. -/
abbrev A := (⟨S8192x2048, .f32⟩ : BufTy).Contents (Elt Ideal)
abbrev W := (⟨S4096x2048, .f32⟩ : BufTy).Contents (Elt Ideal)
abbrev B := (⟨S2048, .f32⟩ : BufTy).Contents (Elt Ideal)

/-! ## The index functions are the specification's indices

Each holds coordinate by coordinate. The three gates' index functions are the same functions under different names,
so the equations are stated once, for the first gate's names. -/

/-- On the left of a contraction, entry j reads row `row j` at the contraction index k. -/
theorem lidx_eq (j : S8192x2048.Idx) (k : Fin 2048) : lidx_main_v6 j k = ix2 (Spec.row j) k := by
  funext a; match a with | ⟨0, _⟩ => rfl | ⟨1, _⟩ => rfl

/-- The same for the second contraction. -/
theorem lidx_eq' (j : S8192x2048.Idx) (k : Fin 2048) : lidx_main_v7 j k = ix2 (Spec.row j) k := lidx_eq j k

/-- On the right of the first contraction, through the slice of rows 0..2047: row `lo k`, column `col j`. -/
theorem ridx_lo_eq (j : S8192x2048.Idx) (k : Fin 2048) :
    idx_main_v0 (ridx_main_v6 j k) = ix2 (Spec.lo k) (Spec.col j) := by
  funext a; match a with | ⟨0, _⟩ => rfl | ⟨1, _⟩ => rfl

/-- On the right of the second contraction, through the slice of rows 2048..4095: row `hi k`, column `col j`. -/
theorem ridx_hi_eq (j : S8192x2048.Idx) (k : Fin 2048) :
    idx_main_v1 (ridx_main_v7 j k) = ix2 (Spec.hi k) (Spec.col j) := by
  funext a; match a with | ⟨0, _⟩ => rfl | ⟨1, _⟩ => rfl

/-- The bias, broadcast to [1, 2048] and then to [8192, 2048], is read at `col j`. -/
theorem bias_idx_eq (j : S8192x2048.Idx) : idx_main_v9 (idx_main_v10 j) = ix1 (Spec.col j) := by
  funext a; match a with | ⟨0, _⟩ => rfl

/-! ## A pre-activation -/

/-- Two contractions through the two slices, added, plus the broadcast bias, at entry j: this is the specification's
    `lin` at (`row j`, `col j`), term for term. -/
theorem lin_read (a b : A) (w : W) (bias : B) (j : S8192x2048.Idx) :
    ((∑ k : Fin 2048, a (lidx_main_v6 j k) * w (idx_main_v0 (ridx_main_v6 j k)))
      + (∑ k : Fin 2048, b (lidx_main_v7 j k) * w (idx_main_v1 (ridx_main_v7 j k))))
      + bias (idx_main_v9 (idx_main_v10 j)) = Spec.lin a b w bias (Spec.row j) (Spec.col j) := by
  unfold Spec.lin
  rw [bias_idx_eq]
  simp only [ridx_lo_eq, ridx_hi_eq, lidx_eq, lidx_eq']

/-- The update gate's pre-activation: x·Wz[0..2047] + h·Wz[2048..4095] + bz. -/
theorem pre_z (x0 x1 : A) (x2 : W) (x3 : B) (j : S8192x2048.Idx) :
    val_main_v11 (F := Ideal) x0 x1 x2 x3 j = Spec.lin x0 x1 x2 x3 (Spec.row j) (Spec.col j) := by
  rw [val_main_v11_apply, val_main_v8_apply, val_main_v6_apply, val_main_v7_apply, val_main_v10_apply,
    val_main_v9_apply]
  simp only [val_main_v0_apply, val_main_v1_apply]
  exact lin_read x0 x1 x2 x3 j

/-- The reset gate's pre-activation: x·Wr[0..2047] + h·Wr[2048..4095] + br. -/
theorem pre_r (x0 x1 : A) (x4 : W) (x5 : B) (j : S8192x2048.Idx) :
    val_main_v23 (F := Ideal) x0 x1 x4 x5 j = Spec.lin x0 x1 x4 x5 (Spec.row j) (Spec.col j) := by
  rw [val_main_v23_apply, val_main_v20_apply, val_main_v18_apply, val_main_v19_apply, val_main_v22_apply,
    val_main_v21_apply]
  simp only [val_main_v2_apply, val_main_v3_apply]
  exact lin_read x0 x1 x4 x5 j

/-! ## The gates -/

/-- The update gate: 1.0 / (1.0 + exp(−v)) at the pre-activation v is logistic v. -/
theorem gate_z (x0 x1 : A) (x2 : W) (x3 : B) (j : S8192x2048.Idx) :
    val_main_v17 (F := Ideal) x0 x1 x2 x3 j = Spec.gate x0 x1 x2 x3 (Spec.row j) (Spec.col j) := by
  rw [val_main_v17_apply, val_main_v16_apply, val_main_cst_0_apply, val_main_v15_apply, val_main_v14_apply,
    val_main_cst_apply, val_main_v13_apply, val_main_v12_apply, pre_z]
  exact Spec.quotient_eq_logistic _

/-- The reset gate, by the same law. -/
theorem gate_r (x0 x1 : A) (x4 : W) (x5 : B) (j : S8192x2048.Idx) :
    val_main_v29 (F := Ideal) x0 x1 x4 x5 j = Spec.gate x0 x1 x4 x5 (Spec.row j) (Spec.col j) := by
  rw [val_main_v29_apply, val_main_v28_apply, val_main_cst_2_apply, val_main_v27_apply, val_main_v26_apply,
    val_main_cst_1_apply, val_main_v25_apply, val_main_v24_apply, pre_r]
  exact Spec.quotient_eq_logistic _

/-- The reset gate times the previous state, as a whole array: the candidate's second contraction reads it at indices
    other than j, so the equation is needed at every entry. -/
theorem reset_eq (x0 x1 : A) (x4 : W) (x5 : B) :
    val_main_v31 (F := Ideal) x0 x1 x4 x5 = Spec.resetState x0 x1 x4 x5 := by
  funext j
  rw [val_main_v31_apply, gate_r]
  rfl

/-! ## The candidate and the new state -/

/-- The candidate's pre-activation: x·Wn[0..2047] + (r·h)·Wn[2048..4095] + bn. -/
theorem pre_n (x0 x1 : A) (x4 : W) (x5 : B) (x6 : W) (x7 : B) (j : S8192x2048.Idx) :
    val_main_v36 (F := Ideal) x0 x1 x4 x5 x6 x7 j
      = Spec.lin x0 (Spec.resetState x0 x1 x4 x5) x6 x7 (Spec.row j) (Spec.col j) := by
  rw [val_main_v36_apply, val_main_v33_apply, val_main_v30_apply, val_main_v32_apply, val_main_v35_apply,
    val_main_v34_apply, reset_eq]
  simp only [val_main_v4_apply, val_main_v5_apply]
  exact lin_read x0 (Spec.resetState x0 x1 x4 x5) x6 x7 j

/-- The reference's result is the specification's cell: (1.0 − z)·h + z·tanh(candidate pre-activation), entry by
    entry, with z and the pre-activation as above. -/
theorem result_eq (x0 x1 : (⟨S8192x2048, .f32⟩ : BufTy).Contents (Elt Ideal)) (x2 : (⟨S4096x2048, .f32⟩ : BufTy).Contents (Elt Ideal)) (x3 : (⟨S2048, .f32⟩ : BufTy).Contents (Elt Ideal)) (x4 : (⟨S4096x2048, .f32⟩ : BufTy).Contents (Elt Ideal)) (x5 : (⟨S2048, .f32⟩ : BufTy).Contents (Elt Ideal)) (x6 : (⟨S4096x2048, .f32⟩ : BufTy).Contents (Elt Ideal)) (x7 : (⟨S2048, .f32⟩ : BufTy).Contents (Elt Ideal)) :
    Cert.ReferenceIdeal.Read.val_main_v42 (F := Ideal) x0 x1 x2 x3 x4 x5 x6 x7 = Cert.Spec.cell x0 x1 x2 x3 x4 x5 x6 x7 := by
  funext i
  rw [val_main_v42_apply, val_main_v40_apply, val_main_v41_apply, val_main_v39_apply, val_main_v38_apply,
    val_main_cst_3_apply, val_main_v37_apply, gate_z, pre_n]
  rfl

end Cert.ReferenceIdeal.RefValue

end
-- ==== Proof.lean ====
/-
  A recurrent (GRU) cell on 8192 rows and 2048 features: a kernel that computes it 128 rows at a time on the matrix
  unit, against its plain reference, over the extended reals.

  Both programs compute, entry by entry,
      z = logistic(x·Wz[0:2048] + h·Wz[2048:4096] + bz),   r = logistic(x·Wr[0:2048] + h·Wr[2048:4096] + br),
      n = tanh(x·Wn[0:2048] + (r∘h)·Wn[2048:4096] + bn),   out = (1 − z)∘h + z∘n,
  with the same sums, the same products and the same grouping. They differ in four ways, none of which changes a value
  on the extended reals: the kernel changes the float format of its matrix operands (the identity here); it cuts the
  weight matrices and stacks the biases before its region instead of inside the computation; it works on blocks of 128
  rows, and a row's result needs only that row of x and of h, so the blocks' results are the rows of the whole result;
  and it applies logistic as one operation where the reference spells 1 / (1 + exp(−v)) — one function of v. No law
  that needs finite entries is used, so the precondition is never opened.

  The three frames: the two kernel programs run their host operations and then the region, whose body at each of
  the 64 grid points reads its input buffers whole and stores one value over its output buffer; the arguments are never
  written. The reference's frame is its run with the result dropped. The kernel's idealization rewrote nothing, so
  what it preserves is trivially true.
-/
import proofs.«139109_j27719718928937_2_alg».proof.Defs
import proofs.«139109_j27719718928937_2_alg».proof.Proof.Gen.Kernel
import proofs.«139109_j27719718928937_2_alg».proof.Proof.Gen.KernelIdeal
import proofs.«139109_j27719718928937_2_alg».proof.Proof.Gen.ReferenceIdeal
import proofs.«139109_j27719718928937_2_alg».proof.Proof.Gen.Pre_finite_inputs
import proofs.«139109_j27719718928937_2_alg».proof.Proof.KRun
import proofs.«139109_j27719718928937_2_alg».proof.Proof.KIRun
import proofs.«139109_j27719718928937_2_alg».proof.Proof.KIValue
import proofs.«139109_j27719718928937_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end without a fault and leaves its arguments as launched. -/
theorem frame_kernel : Cert.frame_Kernel := fun m ρ _ => Cert.Kernel.Frame.frame m ρ

/-- So does its idealization. -/
theorem frame_kernelIdeal : Cert.frame_KernelIdeal := fun m ρ _ => Cert.KernelIdeal.Frame.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the eight arguments, the kernel's result array ends at the cell of its arguments and
    the reference's at the cell of its own: one function of equal arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v42_eq, Cert.ReferenceIdeal.RefValue.result_eq, h0, h1, h2, h3, h4, h5, h6, h7]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
